-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S128x128 : Shape := ⟨2, ![128, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S2048x128 .f32) (main_arg1 : FVec F S2048x128 .f32) (main_arg2 : FVec F S128x128 .f32) (main_arg3 : FVec F S128x128 .f32) (main_arg4 : FVec F S128x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S2048x128 : Shape := ⟨2, ![2048, 128]⟩
abbrev S128x128 : Shape := ⟨2, ![128, 128]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 6
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S2048x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S64x128, .f32⟩
  | .local _ .vmem, ⟨8, _⟩ => ⟨S64x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S2048x128.size a
  hwx0_0 : ∀ i : grid0.Coords, EltTy.bits .f32 = 32 ∨ (Rect.block (s := S2048x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x128.size a
  hwx0_1 : ∀ i : grid0.Coords, EltTy.bits .f32 = 32 ∨ (Rect.block (s := S2048x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S2048x128.size a
  hwx0_5 : ∀ i : grid0.Coords, EltTy.bits .f32 = 32 ∨ (Rect.block (s := S2048x128) S64x128.size (cc0_transform_5 i) (hinb0_5 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x128 : Shape := ⟨2, ![2048, 128]⟩
abbrev S128x128 : Shape := ⟨2, ![128, 128]⟩
abbrev S1x128x128 : Shape := ⟨3, ![1, 128, 128]⟩
abbrev S2048x1x128 : Shape := ⟨3, ![2048, 1, 128]⟩
abbrev S2048x128x128 : Shape := ⟨3, ![2048, 128, 128]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x128x128, .f32⟩
  | .hbm, ⟨6, _⟩ => ⟨S2048x1x128, .f32⟩
  | .hbm, ⟨7, _⟩ => ⟨S1x128x128, .f32⟩
  | .hbm, ⟨8, _⟩ => ⟨S2048x128x128, .f32⟩
  | .hbm, ⟨9, _⟩ => ⟨S2048x128x128, .f32⟩
  | .hbm, ⟨10, _⟩ => ⟨S2048x128x128, .f32⟩
  | .hbm, ⟨11, _⟩ => ⟨S2048x128x128, .f32⟩
  | .hbm, ⟨12, _⟩ => ⟨S2048x128x128, .f32⟩
  | .hbm, ⟨13, _⟩ => ⟨S2048x128x128, .f32⟩
  | .hbm, ⟨14, _⟩ => ⟨S2048x128x128, .f32⟩
  | .hbm, ⟨15, _⟩ => ⟨S_, .f32⟩
  | .hbm, ⟨16, _⟩ => ⟨S2048x128x128, .f32⟩
  | .hbm, ⟨17, _⟩ => ⟨S2048x128x128, .f32⟩
  | .hbm, ⟨18, _⟩ => ⟨S_, .f32⟩
  | .hbm, ⟨19, _⟩ => ⟨S2048x128x128, .f32⟩
  | .hbm, ⟨20, _⟩ => ⟨S2048x128x128, .f32⟩
  | .hbm, ⟨21, _⟩ => ⟨S1x128x128, .f32⟩
  | .hbm, ⟨22, _⟩ => ⟨S2048x128x128, .f32⟩
  | .hbm, ⟨23, _⟩ => ⟨S2048x128x128, .f32⟩
  | .hbm, ⟨24, _⟩ => ⟨S_, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S_, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S_, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S_, .f32⟩
  | .hbm, ⟨59, _⟩ => ⟨S2048x128, .f32⟩
  | .hbm, ⟨60, _⟩ => ⟨S2048x128, .f32⟩
  | .hbm, ⟨61, _⟩ => ⟨S2048x128, .f32⟩
  | .hbm, ⟨62, _⟩ => ⟨S2048x128, .f32⟩
  | .hbm, ⟨63, _⟩ => ⟨S2048x128, .f32⟩
  | .hbm, ⟨64, _⟩ => ⟨S_, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S_, .f32⟩
  | .hbm, ⟨69, _⟩ => ⟨S2048x128, .f32⟩
  | .hbm, ⟨70, _⟩ => ⟨S2048x128, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S_, .f32⟩
  | .hbm, ⟨75, _⟩ => ⟨S2048x128, .f32⟩
  | .hbm, ⟨76, _⟩ => ⟨S2048x128, .f32⟩
  | .hbm, ⟨77, _⟩ => ⟨S2048x128, .f32⟩
  | .hbm, ⟨78, _⟩ => ⟨S_, .f32⟩
  | .hbm, ⟨79, _⟩ => ⟨S2048x128, .f32⟩
  | .hbm, ⟨80, _⟩ => ⟨S2048x128, .f32⟩
  | .hbm, ⟨81, _⟩ => ⟨S2048x128, .f32⟩
  | .hbm, ⟨82, _⟩ => ⟨S2048x128, .f32⟩
  | .hbm, ⟨83, _⟩ => ⟨S2048x128, .f32⟩
  | .hbm, ⟨84, _⟩ => ⟨S_, .f32⟩
  | .hbm, ⟨85, _⟩ => ⟨S2048x128, .f32⟩
  | .hbm, ⟨86, _⟩ => ⟨S2048x128, .f32⟩
  | .hbm, ⟨87, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  bcast_S128x128_S1x128x128_1_2 : S128x128.BroadcastsInDim S1x128x128 (![1, 2] : Fin 2 → Fin S1x128x128.rank)
  bcast_S2048x128_S2048x1x128_0_2 : S2048x128.BroadcastsInDim S2048x1x128 (![0, 2] : Fin 2 → Fin S2048x1x128.rank)
  bcast_S2048x1x128_S2048x128x128_0_1_2 : S2048x1x128.BroadcastsInDim S2048x128x128 (![0, 1, 2] : Fin 3 → Fin S2048x128x128.rank)
  bcast_S1x128x128_S2048x128x128_0_1_2 : S1x128x128.BroadcastsInDim S2048x128x128 (![0, 1, 2] : Fin 3 → Fin S2048x128x128.rank)
  bcast_S_S2048x128x128 : S_.BroadcastsInDim S2048x128x128 (![] : Fin 0 → Fin S2048x128x128.rank)
  reducesTo_S2048x128x128_S2048x128_d2 : S2048x128x128.ReducesTo [2] S2048x128
  h_S_ : 0 < S_.numel
  bcast_S_S2048x128 : S_.BroadcastsInDim S2048x128 (![] : Fin 0 → Fin S2048x128.rank)

variable [Facts₀]

class Facts : Prop extends Facts₀ where

variable [Facts]
-- ==== Proof.Cell.lean ====
/-
  The recurrent cell both programs compute, written once as plain functions on the extended reals.

  For one batch row x ∈ ℝ^128 and one unit u with parameter rows σ_u, μ_u, A_u ∈ ℝ^128 the gate is
      f_d = logistic (σ_{u,d} · (x_d − μ_{u,d}))            (d = 0 … 127),
  its two reductions over the input axis are the drive  a = ∑_d f_d · A_{u,d}  and the load  s = ∑_d f_d,
  and the unit's state h is advanced by six explicit Euler steps of  h' = −ω h + a − h s :
      h ← h + δ · ((c · h + a) − h · s),
  with c the f32 word of −0.1 and δ the f32 word of 0.1/6, both kept as the words the programs carry (the same
  word on both sides is never evaluated). The gate does not depend on h, so a and s are fixed through the six steps.
-/
import Idealize.ShloMosaic.PureOps.Ideal
import Idealize.ShloMosaic.PureOps.Ideal.Laws
import Idealize.ShloMosaic.Lib.ValueIdx

noncomputable section

namespace Cert.OdeCell

open Idealize.ShloMosaic Idealize.ShloMosaic.ValueIdx
open scoped BigOperators

/-- The decay coefficient −ω as the programs carry it: the f32 word of −0.1. -/
def decay : EReal := Ideal.ofBits .f32 0xBDCCCCCD#32

/-- The Euler step length dt/6 as the programs carry it: the f32 word of 0.0166666675. -/
def stepLen : EReal := Ideal.ofBits .f32 0x3C888889#32

/-- The gate at input coordinate `d`: the logistic of σ_d · (x_d − μ_d). -/
def gate (sg mu x : Fin 128 → EReal) (d : Fin 128) : EReal := Ideal.logistic (sg d * (x d - mu d))

/-- The drive a = ∑_d gate_d · w_d. -/
def drive (sg mu w x : Fin 128 → EReal) : EReal := ∑ d : Fin 128, gate sg mu x d * w d

/-- The load s = ∑_d gate_d. -/
def load (sg mu x : Fin 128 → EReal) : EReal := ∑ d : Fin 128, gate sg mu x d

/-- The right-hand side −ω h + a − h s of the state equation, in the order both programs evaluate it. -/
def slope (a s h : EReal) : EReal := (decay * h + a) - h * s

/-- One explicit Euler step. -/
def euler (a s h : EReal) : EReal := h + stepLen * slope a s h

/-- Six Euler steps with the drive and the load held fixed. -/
def cell (a s h : EReal) : EReal := euler a s (euler a s (euler a s (euler a s (euler a s (euler a s h)))))

/-- Row `r` of a matrix with 128 columns, as a function of the column. -/
def row {n : Nat} (v : (⟨2, ![n, 128]⟩ : Shape).Idx → EReal) (r : Fin n) : Fin 128 → EReal := fun d => v (ix2 r d)

/-- The cell applied to every (batch row, unit) pair of an `n`-row batch: entry (r, u) starts from `h (r, u)`, is driven by
    batch row `r` of `x` through unit `u`'s rows of σ, μ and A. -/
def cellArr {n : Nat} (x h : (⟨2, ![n, 128]⟩ : Shape).Idx → EReal) (A sg mu : (⟨2, ![128, 128]⟩ : Shape).Idx → EReal) :
    (⟨2, ![n, 128]⟩ : Shape).Idx → EReal := fun j =>
  cell (drive (row sg (j 1)) (row mu (j 1)) (row A (j 1)) (row x (j 0))) (load (row sg (j 1)) (row mu (j 1)) (row x (j 0))) (h j)

theorem cellArr_apply {n : Nat} (x h : (⟨2, ![n, 128]⟩ : Shape).Idx → EReal) (A sg mu : (⟨2, ![128, 128]⟩ : Shape).Idx → EReal)
    (r : Fin n) (u : Fin 128) :
    cellArr x h A sg mu (ix2 r u)
      = cell (drive (row sg u) (row mu u) (row A u) (row x r)) (load (row sg u) (row mu u) (row x r)) (h (ix2 r u)) := rfl

/-- The cell's value at an entry depends on the batch only through that entry's own batch row and start state: two
    batches (of any heights) that agree there give the same value. -/
theorem cellArr_congr {n n' : Nat} (x h : (⟨2, ![n, 128]⟩ : Shape).Idx → EReal) (x' h' : (⟨2, ![n', 128]⟩ : Shape).Idx → EReal)
    (A sg mu : (⟨2, ![128, 128]⟩ : Shape).Idx → EReal) (r : Fin n) (r' : Fin n') (u : Fin 128)
    (hx : ∀ d : Fin 128, x (ix2 r d) = x' (ix2 r' d)) (hh : h (ix2 r u) = h' (ix2 r' u)) :
    cellArr x h A sg mu (ix2 r u) = cellArr x' h' A sg mu (ix2 r' u) := by
  rw [cellArr_apply, cellArr_apply, hh, show row x r = row x' r' from funext hx]

end Cert.OdeCell

end
-- ==== Proof.Block.lean ====
/-
  What one grid point of the kernel leaves in its output block, as the cell of Cell.lean.

  A point holds 64 batch rows: the block `x0` of the inputs and the block `x1` of the start states, and the three
  128 × 128 parameter matrices whole (`x2` = A, `x3` = σ, `x4` = μ). The body spreads the input block along a new unit axis
  and the parameters along a new batch axis to a 64 × 128 × 128 box, forms the gate there, sums the box over its last axis
  twice (with and without the factor A) and runs the six Euler steps pointwise on the 64 × 128 block. Read at entry
  (r, u) this is `cell (drive …) (load …) (x1 (r, u))` for batch row r of the block and unit u.
-/
import proofs.«154475_j40956808135369_1_alg».proof.Proof.Gen.KernelIdeal.Frame
import proofs.«154475_j40956808135369_1_alg».proof.Proof.Cell
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Cert.OdeCell
open Idealize.ShloMosaic Idealize.ShloMosaic.ValueIdx
open scoped BigOperators

/-! ## The two spreads to the 64 × 128 × 128 box, read at an entry -/

/-- A 64 × 128 block recast as 64 × 1 × 128 and spread over the middle axis: entry (r, u, d) is the block's (r, d). -/
theorem spread_rows (x : S64x128.Idx → EReal) (hc : S64x128.ShapeCasts S64x1x128) (hb : S64x1x128.Broadcasts S64x128x128)
    (r : Fin 64) (u d : Fin 128) :
    broadcastTo S64x128x128 (shapeCast S64x1x128 x hc) hb (ix3 r u d) = x (ix2 r d) := by
  refine (broadcastTo_apply _ hb (ix3 r u d) (ix3 r (0 : Fin 1) d) fun a => ?_).trans
    (shapeCast_apply x hc (ix3 r (0 : Fin 1) d) (ix2 r d) ?_)
  · match a with
    | ⟨0, _⟩ => rfl
    | ⟨1, _⟩ => rfl
    | ⟨2, _⟩ => rfl
  · rw [Shape.rowMajor_val_two, Shape.rowMajor_val_three]
    show (r : Nat) * 128 + (d : Nat) = ((r : Nat) * 1 + 0) * 128 + (d : Nat)
    omega

/-- A 128 × 128 matrix recast as 1 × 128 × 128 and spread over the leading axis: entry (r, u, d) is the matrix's (u, d). -/
theorem spread_units (x : S128x128.Idx → EReal) (hc : S128x128.ShapeCasts S1x128x128) (hb : S1x128x128.Broadcasts S64x128x128)
    (r : Fin 64) (u d : Fin 128) :
    broadcastTo S64x128x128 (shapeCast S1x128x128 x hc) hb (ix3 r u d) = x (ix2 u d) := by
  refine (broadcastTo_apply _ hb (ix3 r u d) (ix3 (0 : Fin 1) u d) fun a => ?_).trans
    (shapeCast_apply x hc (ix3 (0 : Fin 1) u d) (ix2 u d) ?_)
  · match a with
    | ⟨0, _⟩ => rfl
    | ⟨1, _⟩ => rfl
    | ⟨2, _⟩ => rfl
  · rw [Shape.rowMajor_val_two, Shape.rowMajor_val_three]
    show (u : Nat) * 128 + (d : Nat) = (0 * 128 + (u : Nat)) * 128 + (d : Nat)
    omega

/-! ## The gate on the box, and its two sums over the input axis -/

/-- The gate box at entry (r, u, d): the gate of batch row r through unit u's rows of σ and μ, at input coordinate d. -/
theorem gate_box (x0 : Vec Ideal S64x128 .f32) (x3 x4 : Vec Ideal S128x128 .f32) (r : Fin 64) (u d : Fin 128) :
    k0_pay2 (F := Ideal) x0 x3 x4 (ix3 r u d) = gate (row x3 u) (row x4 u) (row x0 r) d := by
  unfold k0_pay2
  show Ideal.logistic (_ * (_ - _)) = _
  rw [spread_units x3, spread_rows x0, spread_units x4]
  rfl

/-- The source index of the sum over the box's last axis: the reduced entry (r, u) with d inserted. -/
theorem lift_box (h : S64x128x128.Reduces [2] S64x128) (r : Fin 64) (u : Fin 128) (d : Fin 128) :
    h.lift (ix2 r u) d = ix3 r u d := by
  funext c
  apply Fin.ext
  match c with
  | ⟨0, _⟩ => rfl
  | ⟨1, _⟩ => rfl
  | ⟨2, _⟩ => rfl

/-- A sum of the box over its last axis, read at (r, u), is the sum over d of the box's (r, u, d). -/
theorem sum_box (v : FVec Ideal S64x128x128 .f32) (h : S64x128x128.Reduces [2] S64x128) (hφ : FKind.Formats .f32)
    (hacc : (0x00000000#32 : BitVec 32) = FKind.add.neutral .f32 hφ) (r : Fin 64) (u : Fin 128) :
    multiReduction .add [2] S64x128 v 0x00000000#32 h hφ hacc (ix2 r u) = ∑ d : Fin 128, v (ix3 r u d) := by
  refine (Ideal.multiReduction_add_single v _ h hφ hacc (ix2 r u)).trans ?_
  exact Finset.sum_congr rfl fun d _ => congrArg v (lift_box h r u d)

/-- The first sum is the drive: the gate times unit u's row of A, summed over the input axis. -/
theorem drive_block (x0 : Vec Ideal S64x128 .f32) (x2 x3 x4 : Vec Ideal S128x128 .f32) (r : Fin 64) (u : Fin 128) :
    k0_pay3 (F := Ideal) x0 x2 x3 x4 (ix2 r u) = drive (row x3 u) (row x4 u) (row x2 u) (row x0 r) := by
  unfold k0_pay3
  refine (sum_box _ _ _ _ r u).trans ?_
  refine Finset.sum_congr rfl fun d _ => ?_
  show k0_pay2 (F := Ideal) x0 x3 x4 (ix3 r u d) * _ = _
  rw [gate_box, spread_units x2]
  rfl

/-- The second sum is the load: the gate summed over the input axis. -/
theorem load_block (x0 : Vec Ideal S64x128 .f32) (x3 x4 : Vec Ideal S128x128 .f32) (r : Fin 64) (u : Fin 128) :
    k0_pay4 (F := Ideal) x0 x3 x4 (ix2 r u) = load (row x3 u) (row x4 u) (row x0 r) := by
  unfold k0_pay4
  refine (sum_box _ _ _ _ r u).trans ?_
  exact Finset.sum_congr rfl fun d _ => gate_box x0 x3 x4 r u d

/-! ## The six Euler steps, pointwise on the block -/

/-- The first two steps and the third step's slope and step length, as the body's first part hands them on. -/
theorem steps_head (x0 x1 : Vec Ideal S64x128 .f32) (x2 x3 x4 : Vec Ideal S128x128 .f32) (j : S64x128.Idx) :
    k0_pay5 (F := Ideal) x0 x1 x2 x3 x4 j
        = euler (k0_pay3 (F := Ideal) x0 x2 x3 x4 j) (k0_pay4 (F := Ideal) x0 x3 x4 j)
            (euler (k0_pay3 (F := Ideal) x0 x2 x3 x4 j) (k0_pay4 (F := Ideal) x0 x3 x4 j) (x1 j))
      ∧ k0_pay6 (F := Ideal) x0 x1 x2 x3 x4 j
        = slope (k0_pay3 (F := Ideal) x0 x2 x3 x4 j) (k0_pay4 (F := Ideal) x0 x3 x4 j) (k0_pay5 (F := Ideal) x0 x1 x2 x3 x4 j)
      ∧ k0_pay7 (F := Ideal) j = stepLen :=
  ⟨rfl, rfl, rfl⟩

/-- The rest of the body: it completes the third step from the state, slope and step length handed on, and takes three more. -/
theorem steps_tail (a s h k l : FVec Ideal S64x128 .f32) (j : S64x128.Idx) :
    k0_pay1 (F := Ideal) a s h k l j = euler (a j) (s j) (euler (a j) (s j) (euler (a j) (s j) (h j + l j * k j))) := rfl

/-- WHAT A POINT LEAVES IN ITS OUTPUT BLOCK: the cell of its 64 batch rows, entry by entry. -/
theorem out_block (x0 x1 : Vec Ideal S64x128 .f32) (x2 x3 x4 : Vec Ideal S128x128 .f32) :
    out0_5 (F := Ideal) x0 x1 x2 x3 x4 = cellArr (n := 64) x0 x1 x2 x3 x4 := by
  have hz : (![0, 0] : Fin 2 → Nat) = fun _ => 0 := funext fun a => by fin_cases a <;> rfl
  unfold out0_5
  rw [View.canon_unit_zero hz]
  simp only [View.ld_unit_zero (S := S64x128) hz, View.ld_unit_zero (S := S128x128) hz]
  funext j
  obtain ⟨r, u, rfl⟩ : ∃ (r : Fin 64) (u : Fin 128), j = ix2 r u := ⟨j 0, j 1, eq_ix2 j⟩
  obtain ⟨e5, e6, e7⟩ := steps_head x0 x1 x2 x3 x4 (ix2 r u)
  rw [steps_tail, e7, e6, e5, drive_block, load_block, cellArr_apply]
  rfl

end Cert.KernelIdeal.Block

end
-- ==== Proof.Blocks.lean ====
/-
  From the 32 blocks to the whole output array.

  Grid point t holds batch rows 64 t … 64 t + 63: its input and state blocks are those rows of the two batch arrays, its
  three parameter blocks are the parameter matrices whole, and it writes its output block back to the same rows of the
  result. The cell's value at an entry depends on the batch only through the entry's own batch row and start state
  (`cellArr_congr`), so what a point writes back is its block of the cell applied to the whole 2048-row batch; the 32
  blocks cover every row, hence the result array ends as that one function of the five argument arrays.
-/
import proofs.«154475_j40956808135369_1_alg».proof.Proof.Block

set_option maxRecDepth 16384

noncomputable section

namespace Cert.KernelIdeal.Blocks

open Cert.KernelIdeal Cert.KernelIdeal.Gen Cert.KernelIdeal.Block Cert.OdeCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the 32 grid points: the two batch windows and the output window sit at block row t, the
    three parameter windows at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Batch row r of point t's blocks is row 64 t + r of the arrays. -/
def rowAt (t : Fin cfg0.N) (r : Fin 64) : Fin 2048 :=
  ⟨t.val * 64 + r.val, by have ht : t.val < 32 := t.isLt; have hr := r.isLt; omega⟩

/-! ## The blocks the body reads -/

theorem inputs_block (c : Dev nD) (t : Fin cfg0.N) (r : Fin 64) (d : Fin 128) :
    iblk m c 0 t (ix2 r d) = V m c main_arg0 (ix2 (rowAt t r) d) := by
  obtain ⟨e0, e1, -⟩ := index_maps t
  show V m c main_arg0 (((cfg0.win 0).blk t).view.emb (ix2 r d)) = V m c main_arg0 (ix2 (rowAt t r) d)
  refine congrArg (V m c main_arg0) (funext fun a => Fin.ext ?_)
  match a with
  | ⟨0, _⟩ => show win0_0.index t (0 : Fin 2) * 64 + 1 * r.val = t.val * 64 + r.val; omega
  | ⟨1, _⟩ => show win0_0.index t (1 : Fin 2) * 128 + 1 * d.val = d.val; omega

theorem state_block (c : Dev nD) (t : Fin cfg0.N) (r : Fin 64) (u : Fin 128) :
    iblk m c 1 t (ix2 r u) = V m c main_arg1 (ix2 (rowAt t r) u) := by
  obtain ⟨-, -, e0, e1, -⟩ := index_maps t
  show V m c main_arg1 (((cfg0.win 1).blk t).view.emb (ix2 r u)) = V m c main_arg1 (ix2 (rowAt t r) u)
  refine congrArg (V m c main_arg1) (funext fun a => Fin.ext ?_)
  match a with
  | ⟨0, _⟩ => show win0_1.index t (0 : Fin 2) * 64 + 1 * r.val = t.val * 64 + r.val; omega
  | ⟨1, _⟩ => show win0_1.index t (1 : Fin 2) * 128 + 1 * u.val = u.val; omega

theorem A_block (c : Dev nD) (t : Fin cfg0.N) : iblk m c 2 t = V m c main_arg2 := by
  obtain ⟨-, -, -, -, e0, e1, -⟩ := index_maps t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem sigma_block (c : Dev nD) (t : Fin cfg0.N) : iblk m c 3 t = V m c main_arg3 := by
  obtain ⟨-, -, -, -, -, -, e0, e1, -⟩ := index_maps t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem mu_block (c : Dev nD) (t : Fin cfg0.N) : iblk m c 4 t = V m c main_arg4 := by
  obtain ⟨-, -, -, -, -, -, -, -, e0, e1, -⟩ := index_maps t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry (r, u) of point t's output block is entry (64 t + r, u) of the result. -/
theorem out_emb (t : Fin cfg0.N) (r : Fin 64) (u : Fin 128) :
    ((cfg0.win 5).blk t).view.emb (ix2 r u) = ix2 (rowAt t r) u := by
  obtain ⟨-, -, -, -, -, -, -, -, -, -, e0, e1⟩ := index_maps t
  refine funext fun a => Fin.ext ?_
  match a with
  | ⟨0, _⟩ => show win0_5.index t (0 : Fin 2) * 64 + 1 * r.val = t.val * 64 + r.val; omega
  | ⟨1, _⟩ => show win0_5.index t (1 : Fin 2) * 128 + 1 * u.val = u.val; omega

/-! ## What a point writes back, the cover, the array -/

/-- The cell applied to the whole batch as core `c` finds the arrays when the region is entered. -/
abbrev whole (c : Dev nD) : S2048x128.Idx → EReal :=
  cellArr (n := 2048) (V m c main_arg0) (V m c main_arg1) (V m c main_arg2) (V m c main_arg3) (V m c main_arg4)

/-- WHAT POINT t WRITES BACK is block t of the cell applied to the whole batch. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5, out_block, A_block, sigma_block, mu_block]
  funext y
  obtain ⟨r, u, rfl⟩ : ∃ (r : Fin 64) (u : Fin 128), y = ix2 r u := ⟨y 0, y 1, eq_ix2 y⟩
  show cellArr (n := 64) (iblk m c 0 t) (iblk m c 1 t) (V m c main_arg2) (V m c main_arg3) (V m c main_arg4) (ix2 r u)
    = whole m c (((cfg0.win 5).blk t).view.emb (ix2 r u))
  rw [out_emb]
  exact cellArr_congr (iblk m c 0 t) (iblk m c 1 t) (V m c main_arg0) (V m c main_arg1) (V m c main_arg2) (V m c main_arg3)
    (V m c main_arg4) r (rowAt t r) u (fun d => inputs_block m c t r d) (state_block m c t r u)

/-- An index of the result is in point t's block iff each coordinate is in the block's range on its axis. -/
theorem mem_blk (t : Fin cfg0.N) (i : S2048x128.Idx) :
    i ∈ ((cfg0.win 5).blk t).view.set ↔ ∀ a : Fin 2, win0_5.index t a * S64x128.size a ≤ (i a).val ∧ (i a).val < win0_5.index t a * S64x128.size a + S64x128.size a := by
  show i ∈ ((View.whole main_v0).slice (win0_5.rect t)).set ↔ _
  rw [View.set_slice_whole, Rect.mem_set_unit]
  exact Iff.rfl

/-- Every entry of the result lies in the block of the point its batch row belongs to. -/
theorem cover (i : S2048x128.Idx) : ∃ t : Fin cfg0.N, (cfg0.win 5).flush t = true ∧ i ∈ ((cfg0.win 5).blk t).view.set := by
  have hi0 : (i 0).val < 2048 := (i 0).isLt
  have hi1 : (i 1).val < 128 := (i 1).isLt
  have hq : (i 0).val / 64 < cfg0.N := by show (i 0).val / 64 < 32; omega
  refine ⟨⟨(i 0).val / 64, hq⟩, flush0_5 _, ?_⟩
  obtain ⟨-, -, -, -, -, -, -, -, -, -, e0, e1⟩ := index_maps ⟨(i 0).val / 64, hq⟩
  rw [mem_blk]
  intro a
  match a with
  | ⟨0, _⟩ =>
    show win0_5.index ⟨(i 0).val / 64, hq⟩ (0 : Fin 2) * 64 ≤ (i 0).val ∧ (i 0).val < win0_5.index ⟨(i 0).val / 64, hq⟩ (0 : Fin 2) * 64 + 64
    rw [e0]; show (i 0).val / 64 * 64 ≤ (i 0).val ∧ (i 0).val < (i 0).val / 64 * 64 + 64; omega
  | ⟨1, _⟩ =>
    show win0_5.index ⟨(i 0).val / 64, hq⟩ (1 : Fin 2) * 128 ≤ (i 1).val ∧ (i 1).val < win0_5.index ⟨(i 0).val / 64, hq⟩ (1 : Fin 2) * 128 + 128
    rw [e1]; omega

/-- THE RESULT ARRAY after the run is the cell applied to the whole batch. -/
theorem final (c : Dev nD) : (dats m 0 c).arrAt 5 cfg0.N = whole m c :=
  (dats m 0 c).arrAt_eq_of_cover 5 (whole m c) (fun t _ => flushed_eq m c t) cover

/-! ## The run, read -/

/-- Every weakly fair execution of the kernel's program terminates with the result array at the cell applied to the whole
    batch of the launch's argument arrays, and the argument arrays unchanged. -/
theorem run : θ_run defs (onTc (τ := τ) (main (F := Ideal))) ⟨m, fun _ => 0, ρ⟩ fun r => ∀ c : Dev nD,
      r.2.mem ((c : Thread nD τ).loc main_v0)
        = cellArr (n := 2048) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4))⟩)
    (run_main m ρ)

end Cert.KernelIdeal.Blocks

end
-- ==== Proof.RefCell.lean ====
/-
  What the reference computes, as the cell of Cell.lean applied to the whole 2048-row batch.

  The reference spreads the inputs along a new unit axis and the parameters along a new batch axis to one
  2048 × 128 × 128 box, forms the gate there as 1 / (1 + exp (−z)) — on the extended reals that IS the logistic —, sums
  the box over its last axis twice (from the zero word, which is 0) and runs the six Euler steps on the 2048 × 128
  array. Read at entry (b, u) this is `cell (drive …) (load …) (state (b, u))`.
-/
import proofs.«154475_j40956808135369_1_alg».proof.Proof.Gen.ReferenceIdeal.Run
import proofs.«154475_j40956808135369_1_alg».proof.Proof.Cell
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefCell

open Cert.ReferenceIdeal Cert.ReferenceIdeal.Gen Cert.ReferenceIdeal.Value Cert.OdeCell
open Idealize.ShloMosaic Idealize.ShloMosaic.ValueIdx Idealize.ShloMosaic.StableHlo
open scoped BigOperators

/-! ## The spreads to the 2048 × 128 × 128 box and of a scalar, read at an entry -/

/-- A 128 × 128 matrix given a leading unit axis and spread over the batch: entry (b, u, d) is the matrix's (u, d). -/
theorem spread_units (x : S128x128.Idx → EReal) (h1 : S128x128.BroadcastsInDim S1x128x128 (![1, 2] : Fin 2 → Fin S1x128x128.rank))
    (h2 : S1x128x128.BroadcastsInDim S2048x128x128 (![0, 1, 2] : Fin 3 → Fin S2048x128x128.rank))
    (b : Fin 2048) (u d : Fin 128) :
    broadcastInDim S2048x128x128 ![0, 1, 2] h2 (broadcastInDim S1x128x128 ![1, 2] h1 x) (ix3 b u d) = x (ix2 u d) := by
  refine (broadcastInDim_apply _ h2 _ (ix3 b u d) (ix3 (0 : Fin 1) u d) fun a => ?_).trans
    (broadcastInDim_apply _ h1 x (ix3 (0 : Fin 1) u d) (ix2 u d) fun a => ?_)
  · match a with
    | ⟨0, _⟩ => rfl
    | ⟨1, _⟩ => rfl
    | ⟨2, _⟩ => rfl
  · match a with
    | ⟨0, _⟩ => rfl
    | ⟨1, _⟩ => rfl

/-- The 2048 × 128 inputs given a middle unit axis and spread over the units: entry (b, u, d) is the inputs' (b, d). -/
theorem spread_rows (x : S2048x128.Idx → EReal) (h1 : S2048x128.BroadcastsInDim S2048x1x128 (![0, 2] : Fin 2 → Fin S2048x1x128.rank))
    (h2 : S2048x1x128.BroadcastsInDim S2048x128x128 (![0, 1, 2] : Fin 3 → Fin S2048x128x128.rank))
    (b : Fin 2048) (u d : Fin 128) :
    broadcastInDim S2048x128x128 ![0, 1, 2] h2 (broadcastInDim S2048x1x128 ![0, 2] h1 x) (ix3 b u d) = x (ix2 b d) := by
  refine (broadcastInDim_apply _ h2 _ (ix3 b u d) (ix3 b (0 : Fin 1) d) fun a => ?_).trans
    (broadcastInDim_apply _ h1 x (ix3 b (0 : Fin 1) d) (ix2 b d) fun a => ?_)
  · match a with
    | ⟨0, _⟩ => rfl
    | ⟨1, _⟩ => rfl
    | ⟨2, _⟩ => rfl
  · match a with
    | ⟨0, _⟩ => rfl
    | ⟨1, _⟩ => rfl

/-- A scalar word spread to any shape is that word's value at every entry. -/
theorem spread_word {t : Shape} (w : BitVec 32) (h : S_.BroadcastsInDim t (![] : Fin 0 → Fin t.rank)) (j : t.Idx) :
    broadcastInDim t ![] h (constant (F := Ideal) S_ .f32 w) j = Ideal.ofBits .f32 w :=
  broadcastInDim_apply _ h _ j ix0 fun a => a.elim0

/-! ## The gate on the box, and its two sums -/

variable (V0 : Valuation τ sig (Elt Ideal))

/-- The reference's gate box at entry (b, u, d): 1 / (1 + exp (−z)) at z = σ_{u,d} (x_{b,d} − μ_{u,d}) is the logistic of z. -/
theorem gate_box (b : Fin 2048) (u d : Fin 128) :
    res_main_v13 (F := Ideal) V0 (ix3 b u d)
      = gate (row (V0 (Proc.devRef .tc main_arg3)) u) (row (V0 (Proc.devRef .tc main_arg4)) u) (row (V0 (Proc.devRef .tc main_arg0)) b) d := by
  unfold res_main_v13
  show Ideal.div _ (_ + Ideal.exp (-(_ * (_ - _)))) = _
  rw [spread_units, spread_rows, spread_units, spread_word, Ideal.ofBits_one_f32]
  rfl

/-- The source index of the sum over the box's last axis: the reduced entry (b, u) with d inserted. -/
theorem lift_box (h : S2048x128x128.Reduces [2] S2048x128) (b : Fin 2048) (u : Fin 128) (d : Fin 128) :
    h.lift (ix2 b u) d = ix3 b u d := by
  funext c
  apply Fin.ext
  match c with
  | ⟨0, _⟩ => rfl
  | ⟨1, _⟩ => rfl
  | ⟨2, _⟩ => rfl

/-- The host's sum of the box over its last axis from the zero word, read at (b, u): the sum over d of the box's (b, u, d). -/
theorem sum_box (v : FVec Ideal S2048x128x128 .f32) (h' : S2048x128x128.ReducesTo [2] S2048x128) (hu : 0 < S_.numel)
    (b : Fin 2048) (u : Fin 128) :
    Host.reduceAdd (F := Ideal) v (constant (F := Ideal) S_ .f32 0x00000000#32) h' hu (ix2 b u) = ∑ d : Fin 128, v (ix3 b u d) := by
  have h : S2048x128x128.Reduces [2] S2048x128 := by decide
  show Ideal.hostReduceAdd h' v (Ideal.ofBits .f32 0x00000000#32) (ix2 b u) = _
  rw [Ideal.hostReduceAdd_single h' h, Ideal.ofBits_zero_f32, zero_add]
  exact Finset.sum_congr rfl fun d _ => congrArg v (lift_box h b u d)

/-- The reference's first sum is the drive. -/
theorem drive_ref (b : Fin 2048) (u : Fin 128) :
    res_main_v17 (F := Ideal) V0 (ix2 b u)
      = drive (row (V0 (Proc.devRef .tc main_arg3)) u) (row (V0 (Proc.devRef .tc main_arg4)) u)
          (row (V0 (Proc.devRef .tc main_arg2)) u) (row (V0 (Proc.devRef .tc main_arg0)) b) := by
  unfold res_main_v17
  refine (sum_box _ _ _ b u).trans ?_
  refine Finset.sum_congr rfl fun d _ => ?_
  refine (mulf_apply (s := S2048x128x128) (φ := .f32) _ _ (ix3 b u d)).trans ?_
  rw [gate_box, spread_units]
  rfl

/-- The reference's second sum is the load. -/
theorem load_ref (b : Fin 2048) (u : Fin 128) :
    res_main_v18 (F := Ideal) V0 (ix2 b u)
      = load (row (V0 (Proc.devRef .tc main_arg3)) u) (row (V0 (Proc.devRef .tc main_arg4)) u) (row (V0 (Proc.devRef .tc main_arg0)) b) := by
  unfold res_main_v18
  refine (sum_box _ _ _ b u).trans ?_
  exact Finset.sum_congr rfl fun d _ => gate_box V0 b u d

/-! ## The six Euler steps, pointwise on the array -/

/-- Each named intermediate state is one Euler step from the one before it, with the drive and the load the two sums. -/
theorem steps (j : S2048x128.Idx) :
    res_main_v26 (F := Ideal) V0 j = euler (res_main_v17 (F := Ideal) V0 j) (res_main_v18 (F := Ideal) V0 j) (V0 (Proc.devRef .tc main_arg1) j)
    ∧ res_main_v34 (F := Ideal) V0 j = euler (res_main_v17 (F := Ideal) V0 j) (res_main_v18 (F := Ideal) V0 j) (res_main_v26 (F := Ideal) V0 j)
    ∧ res_main_v42 (F := Ideal) V0 j = euler (res_main_v17 (F := Ideal) V0 j) (res_main_v18 (F := Ideal) V0 j) (res_main_v34 (F := Ideal) V0 j)
    ∧ res_main_v50 (F := Ideal) V0 j = euler (res_main_v17 (F := Ideal) V0 j) (res_main_v18 (F := Ideal) V0 j) (res_main_v42 (F := Ideal) V0 j)
    ∧ res_main_v58 (F := Ideal) V0 j = euler (res_main_v17 (F := Ideal) V0 j) (res_main_v18 (F := Ideal) V0 j) (res_main_v50 (F := Ideal) V0 j) :=
  ⟨rfl, rfl, rfl, rfl, rfl⟩

/-- The reference's result, as its run states it over the named intermediates. -/
def result : S2048x128.Idx → EReal :=
  addf (res_main_v58 (F := Ideal) V0) (mulf (broadcastInDim S2048x128 ![] bcast_S_S2048x128 (constant (F := Ideal) S_ .f32 0x3C888889#32)) (subf (addf (mulf (broadcastInDim S2048x128 ![] bcast_S_S2048x128 (constant (F := Ideal) S_ .f32 0xBDCCCCCD#32)) (res_main_v58 (F := Ideal) V0)) (res_main_v17 (F := Ideal) V0)) (mulf (res_main_v58 (F := Ideal) V0) (res_main_v18 (F := Ideal) V0))))

/-- THE REFERENCE'S RESULT is the cell of the whole batch, entry by entry. -/
theorem result_eq :
    result V0 = cellArr (n := 2048) (V0 (Proc.devRef .tc main_arg0)) (V0 (Proc.devRef .tc main_arg1)) (V0 (Proc.devRef .tc main_arg2))
      (V0 (Proc.devRef .tc main_arg3)) (V0 (Proc.devRef .tc main_arg4)) := by
  funext j
  obtain ⟨b, u, rfl⟩ : ∃ (b : Fin 2048) (u : Fin 128), j = ix2 b u := ⟨j 0, j 1, eq_ix2 j⟩
  obtain ⟨e26, e34, e42, e50, e58⟩ := steps V0 (ix2 b u)
  have e66 : result V0 (ix2 b u)
      = euler (res_main_v17 (F := Ideal) V0 (ix2 b u)) (res_main_v18 (F := Ideal) V0 (ix2 b u)) (res_main_v58 (F := Ideal) V0 (ix2 b u)) := rfl
  rw [e66, e58, e50, e42, e34, e26, drive_ref, load_ref, cellArr_apply]
  rfl

end Cert.ReferenceIdeal.RefCell

end
-- ==== Proof.lean ====
/-
  The Euler-unfolded ODE recurrent cell with logistic gating: the Pallas kernel against its jnp reference, on the
  extended reals.

  Both programs compute, for every batch row b and unit u,
      f_d = logistic (σ_{u,d} (x_{b,d} − μ_{u,d})),   a = ∑_d f_d A_{u,d},   s = ∑_d f_d,
  and six steps  h ← h + δ ((c h + a) − h s)  from h = state_{b,u}, with the same two f32 words c (−0.1) and δ (0.1/6).
  The kernel does this 64 batch rows at a time over a grid of 32 points, spreading each block to a 64 × 128 × 128 box
  and summing its last axis (Proof/Block.lean, Proof/Blocks.lean); the reference does it once on a 2048 × 128 × 128
  box, with the logistic spelt 1 / (1 + exp (−z)) (Proof/RefCell.lean). Both are the function `cellArr` of Proof/Cell.lean
  of the five argument arrays — the same sums in the same order, the same operations on the same words —, so the claim
  needs no law of the extended reals beyond the definition of the logistic, and never opens the finiteness precondition.

  The ideal pass rewrote nothing, so `preserves` is `True`. The two kernel frames are the generated class-A frames; the
  reference's frame is its generated run with the result dropped.
-/
import proofs.«154475_j40956808135369_1_alg».proof.Defs
import proofs.«154475_j40956808135369_1_alg».proof.Proof.Gen.Kernel
import proofs.«154475_j40956808135369_1_alg».proof.Proof.Gen.Kernel.Frame
import proofs.«154475_j40956808135369_1_alg».proof.Proof.Gen.KernelIdeal
import proofs.«154475_j40956808135369_1_alg».proof.Proof.Gen.KernelIdeal.Frame
import proofs.«154475_j40956808135369_1_alg».proof.Proof.Gen.ReferenceIdeal
import proofs.«154475_j40956808135369_1_alg».proof.Proof.Gen.ReferenceIdeal.Run
import proofs.«154475_j40956808135369_1_alg».proof.Proof.Gen.Pre_finite_inputs
import proofs.«154475_j40956808135369_1_alg».proof.Proof.Blocks
import proofs.«154475_j40956808135369_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, the kernel's result array ends at the cell applied to the whole batch
    (Proof/Blocks.lean) and the reference's result is the same function of its arguments (Proof/RefCell.lean). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefCell.result_eq (StableHlo.launchContents m' c)).trans ?_
  have e0 : StableHlo.launchContents m' c (Proc.devRef .tc Cert.ReferenceIdeal.main_arg0) = _ := (hagree c).1
  have e1 : StableHlo.launchContents m' c (Proc.devRef .tc Cert.ReferenceIdeal.main_arg1) = _ := (hagree c).2.1
  have e2 : StableHlo.launchContents m' c (Proc.devRef .tc Cert.ReferenceIdeal.main_arg2) = _ := (hagree c).2.2.1
  have e3 : StableHlo.launchContents m' c (Proc.devRef .tc Cert.ReferenceIdeal.main_arg3) = _ := (hagree c).2.2.2.1
  have e4 : StableHlo.launchContents m' c (Proc.devRef .tc Cert.ReferenceIdeal.main_arg4) = _ := (hagree c).2.2.2.2
  rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
